-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 85
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S128x128, .f32⟩
  | .hbm, ⟨45, _⟩ => ⟨S128x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S128x128, .f32⟩
  | .hbm, ⟨83, _⟩ => ⟨S128x128, .f32⟩
  | .hbm, ⟨84, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S128x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S128x128, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The three-call program's run with its result named.

  @main is three stretches of host operations, each followed by one pallas_call.  Every weakly fair execution
  terminates without a fault with every unscoped buffer at the contents the fold through the six segments gives
  it (`W6`); in particular the result buffer holds the fold's value there, and the eleven argument arrays hold
  what they held at launch.  The value of the fold at the result buffer is computed in a later module.
-/
import proofs.«147117_j12266426598044_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the fold's value
    and the argument arrays as launched. -/
theorem run_value : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Sage.KernelRun

end
-- ==== Proof.SageLaw.lean ====
/-
  One SAGE layer's dense half at one entry, and the law that joins the two programs' spellings of it.

  A layer takes a node-feature matrix h, sums the features of each node's in-neighbours into S (a gather of rows
  followed by a scatter-add), and counts the in-neighbours into deg.  With D = max(deg, 1) the mean aggregate is
  S / D, and the layer's output at node r, feature c, is

      max( Σ_k (S[r,k] / D[r]) · Wl[c,k]  +  Σ_k h[r,k] · Wr[c,k]  +  b[c] ,  0 ).

  One program multiplies S by the reciprocal 1 / D[r] and adds the bias last; the other divides by D[r] and adds
  the bias between the two products.  On the extended reals x · (1 / D) = x / D whenever D ≠ 0 (both are
  x · D⁻¹), and D = max(deg, 1) ≥ 1 is never 0; addition is commutative and associative there.  So the two
  spellings agree for EVERY extended-real input: no finiteness is used.
-/
import Idealize.ShloMosaic.PureOps.Ideal.Laws
import Idealize.ShloMosaic.Lib.ValueIdx

noncomputable section

namespace Cert.Sage

open Idealize.ShloMosaic Idealize.ShloMosaic.ValueIdx

/-- The f32 word of 1.0 denotes the extended real 1. -/
theorem one_word : Ideal.ofBits .f32 0x3F800000#32 = (1 : EReal) := by
  simp [Ideal.ofBits, Ideal.ieee, -EReal.coe_mul]
  norm_num

/-- A degree clamped from below by 1 is never 0. -/
theorem clamp_ne_zero (d : EReal) : max d (Ideal.ofBits .f32 0x3F800000#32) ≠ 0 := by
  rw [one_word]
  exact ne_of_gt (lt_max_of_lt_right zero_lt_one)

/-- Multiplying by the reciprocal of a nonzero extended real is dividing by it. -/
theorem mul_recip (x D : EReal) (hD : D ≠ 0) : x * Ideal.div (Ideal.ofBits .f32 0x3F800000#32) D = Ideal.div x D := by
  rw [one_word, Ideal.div, Ideal.div, if_neg hD, if_neg hD, one_mul]

/-- The dense half of a layer at entry (r, c), from an aggregate `agg`, the node features `h`, the two weight
    matrices already transposed (`wl[k,c]`, `wr[k,c]`) and the bias as one row: the kernel's spelling,
    (agg·wl + h·wr) + b, clamped at 0. -/
def denseAt {n : ℕ} (agg h : (⟨2, ![n, 128]⟩ : Shape).Idx → EReal) (wl wr : (⟨2, ![128, 128]⟩ : Shape).Idx → EReal)
    (b : (⟨2, ![1, 128]⟩ : Shape).Idx → EReal) (r : Fin n) (c : Fin 128) : EReal :=
  max ((∑ k : Fin 128, agg (ix2 r k) * wl (ix2 k c) + ∑ k : Fin 128, h (ix2 r k) * wr (ix2 k c)) + b (ix2 (0 : Fin 1) c))
    (Ideal.ofBits .f32 0x00000000#32)

/-- The same as a whole array. -/
def dense {n : ℕ} (agg h : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => denseAt agg h wl wr b (i 0) (i 1)

theorem dense_ix2 {n : ℕ} (agg h : (⟨2, ![n, 128]⟩ : Shape).Idx → EReal) (wl wr : (⟨2, ![128, 128]⟩ : Shape).Idx → EReal)
    (b : (⟨2, ![1, 128]⟩ : Shape).Idx → EReal) (r : Fin n) (c : Fin 128) :
    dense agg h wl wr b (ix2 r c) = denseAt agg h wl wr b r c := rfl

/-- THE LAW at one entry.  With the aggregate spelt S · (1 / D) on the left and S / D on the right, D a clamped
    degree, and the bias added last on the left and between the two products on the right, the two values are
    one extended real. -/
theorem entry_law (S : Fin 128 → EReal) (d : EReal) (wl hx wr : Fin 128 → EReal) (b : EReal) :
    max ((∑ k : Fin 128, (S k * Ideal.div (Ideal.ofBits .f32 0x3F800000#32) (max d (Ideal.ofBits .f32 0x3F800000#32))) * wl k
          + ∑ k : Fin 128, hx k * wr k) + b) (Ideal.ofBits .f32 0x00000000#32)
      = max ((∑ k : Fin 128, Ideal.div (S k) (max d (Ideal.ofBits .f32 0x3F800000#32)) * wl k + b)
          + ∑ k : Fin 128, hx k * wr k) (Ideal.ofBits .f32 0x00000000#32) := by
  have e : ∀ k, S k * Ideal.div (Ideal.ofBits .f32 0x3F800000#32) (max d (Ideal.ofBits .f32 0x3F800000#32))
      = Ideal.div (S k) (max d (Ideal.ofBits .f32 0x3F800000#32)) := fun k => mul_recip _ _ (clamp_ne_zero d)
  simp only [e]
  rw [add_right_comm]

end Cert.Sage

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.DenseBlock.lean ====
/-
  What one grid point's body computes, entry by entry.

  The body loads a block of 2000 rows of the aggregate and of the node features, the two transposed weight
  matrices and the bias row, forms the two matrix products (each into a zero accumulator), adds them, adds the
  bias row repeated down the rows, and clamps at 0.  Changes of float format are the identity on the extended
  reals, so at row p, column q of the block the stored value is the layer's dense half `denseAt` of the five
  loaded blocks.  The three pallas_calls run the same body (the second and third print one extra identity
  reshape), so the three payloads are one function.
-/
import proofs.«147117_j12266426598044_1_alg».proof.Proof.Gen.KernelIdeal.Skeleton
import proofs.«147117_j12266426598044_1_alg».proof.Proof.SageLaw
import proofs.«147117_j12266426598044_1_alg».proof.Proof.LibSplitContraction
import Idealize.ShloMosaic.Lib.ValueLayout
import Idealize.ShloMosaic.Lib.Pipeline.Value

noncomputable section

namespace Cert.Sage

open Cert.KernelIdeal Cert.KernelIdeal.Gen Idealize.ShloMosaic Idealize.ShloMosaic.ValueIdx

/-! ## The block product's index maps, coordinate by coordinate -/

theorem blk_l0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem blk_l1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem blk_r0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem blk_r1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block product into the zero accumulator at row p, column q: the sum over the 128 contracted entries. -/
theorem blk_product {φ₁ φ₂ : FTy} (l : FVec Ideal S2000x128 φ₁) (w : FVec Ideal S128x128 φ₂) (p : Fin 2000) (q : Fin 128) :
    matmul dot_S2000x128_S128x128_S2000x128_1_0_0_1_n_n none l w (constant (F := Ideal) S2000x128 .f32 0x00000000#32) (ix2 p q)
      = ∑ k : Fin 128, l (ix2 p k) * w (ix2 k q) :=
  Cert.Lib.SplitContraction.matmul_zero_at dot_S2000x128_S128x128_S2000x128_1_0_0_1_n_n rfl rfl blk_l0 blk_l1 blk_r0 blk_r1 none l w p q

/-! ## The three payloads at an entry -/

theorem pay0_at (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = denseAt x0 x1 x2 x3 x4 p q := by
  unfold k0_pay1 denseAt
  rw [maximumf_apply, addf_apply, addf_apply, broadcast_apply, blk_product, blk_product, broadcastTo_1b_ab_apply]
  simp only [truncf_apply, shapeCast_self]
  rfl

/-- A block's entry from the whole arrays: when row p of the two row-blocked inputs is row R of the arrays and
    the other three blocks are the whole arrays, the stored value is the arrays' dense half at (R, q). -/
theorem block_entry0 {n : ℕ} (A H : (⟨2, ![n, 128]⟩ : Shape).Idx → EReal) (WL WR : S128x128.Idx → EReal) (B : S1x128.Idx → EReal)
    (x0 x1 : Vec Ideal S2000x128 .f32) (x2 x3 : Vec Ideal S128x128 .f32) (x4 : Vec Ideal S1x128 .f32)
    (p : Fin 2000) (q : Fin 128) (R : Fin n)
    (h0 : ∀ k : Fin 128, x0 (ix2 p k) = A (ix2 R k)) (h1 : ∀ k : Fin 128, x1 (ix2 p k) = H (ix2 R k))
    (h2 : x2 = WL) (h3 : x3 = WR) (h4 : x4 = B) :
    k0_pay1 (F := Ideal) x0 x1 x2 x3 x4 (ix2 p q) = dense A H WL WR B (ix2 R q) := by
  rw [pay0_at, dense_ix2]
  subst h2 h3 h4
  unfold denseAt
  simp only [h0, h1]

theorem pay1_at (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = denseAt x0 x1 x2 x3 x4 p q := by
  unfold k1_pay1 denseAt
  rw [maximumf_apply, addf_apply, addf_apply, broadcast_apply, blk_product, blk_product, broadcastTo_1b_ab_apply]
  simp only [truncf_apply, shapeCast_self]
  rfl

/-- A block's entry from the whole arrays: when row p of the two row-blocked inputs is row R of the arrays and
    the other three blocks are the whole arrays, the stored value is the arrays' dense half at (R, q). -/
theorem block_entry1 {n : ℕ} (A H : (⟨2, ![n, 128]⟩ : Shape).Idx → EReal) (WL WR : S128x128.Idx → EReal) (B : S1x128.Idx → EReal)
    (x0 x1 : Vec Ideal S2000x128 .f32) (x2 x3 : Vec Ideal S128x128 .f32) (x4 : Vec Ideal S1x128 .f32)
    (p : Fin 2000) (q : Fin 128) (R : Fin n)
    (h0 : ∀ k : Fin 128, x0 (ix2 p k) = A (ix2 R k)) (h1 : ∀ k : Fin 128, x1 (ix2 p k) = H (ix2 R k))
    (h2 : x2 = WL) (h3 : x3 = WR) (h4 : x4 = B) :
    k1_pay1 (F := Ideal) x0 x1 x2 x3 x4 (ix2 p q) = dense A H WL WR B (ix2 R q) := by
  rw [pay1_at, dense_ix2]
  subst h2 h3 h4
  unfold denseAt
  simp only [h0, h1]

theorem pay2_at (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q) = denseAt x0 x1 x2 x3 x4 p q := by
  unfold k2_pay1 denseAt
  rw [maximumf_apply, addf_apply, addf_apply, broadcast_apply, blk_product, blk_product, broadcastTo_1b_ab_apply]
  simp only [truncf_apply, shapeCast_self]
  rfl

/-- A block's entry from the whole arrays: when row p of the two row-blocked inputs is row R of the arrays and
    the other three blocks are the whole arrays, the stored value is the arrays' dense half at (R, q). -/
theorem block_entry2 {n : ℕ} (A H : (⟨2, ![n, 128]⟩ : Shape).Idx → EReal) (WL WR : S128x128.Idx → EReal) (B : S1x128.Idx → EReal)
    (x0 x1 : Vec Ideal S2000x128 .f32) (x2 x3 : Vec Ideal S128x128 .f32) (x4 : Vec Ideal S1x128 .f32)
    (p : Fin 2000) (q : Fin 128) (R : Fin n)
    (h0 : ∀ k : Fin 128, x0 (ix2 p k) = A (ix2 R k)) (h1 : ∀ k : Fin 128, x1 (ix2 p k) = H (ix2 R k))
    (h2 : x2 = WL) (h3 : x3 = WR) (h4 : x4 = B) :
    k2_pay1 (F := Ideal) x0 x1 x2 x3 x4 (ix2 p q) = dense A H WL WR B (ix2 R q) := by
  rw [pay2_at, dense_ix2]
  subst h2 h3 h4
  unfold denseAt
  simp only [h0, h1]

end Cert.Sage

end
-- ==== Proof.RegionValue.lean ====
/-
  What each pallas_call leaves in its output array.

  A call's grid has 25 points; point t stages rows 2000·t … 2000·t + 1999 of the aggregate and of the node
  features, the whole of the two transposed weight matrices and of the bias row, and writes back rows
  2000·t … 2000·t + 1999 of the output.  Row p of a staged block is row 2000·t + p of its array, so what the
  point writes back is the block of ONE whole-array function, the layer's dense half `dense` of the five arrays
  as the call finds them; the 25 blocks tile the 50000 rows, so after the call the output array is that function.
  Stated for any contents `V` at the call's entry, once per call.
-/
import proofs.«147117_j12266426598044_1_alg».proof.Proof.Gen.KernelIdeal.Frame
import proofs.«147117_j12266426598044_1_alg».proof.Proof.DenseBlock
import Idealize.ShloMosaic.Lib.Pipeline.Value

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's rectangles start at offset zero on both axes. -/
theorem zero_offsets : (![0, 0] : Fin 2 → Nat) = fun _ => 0 := funext fun a => by fin_cases a <;> rfl

/-! ## pallas_call 0 -/

/-- The printed index maps over the 25 grid points: the two row-blocked inputs move with the output (block t holds
    rows 2000·t … 2000·t + 1999), the weights and the bias row stay at block 0. -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point t writes back is block t of the layer's dense half of the five arrays the call finds. -/
theorem flushed0 (c : Dev nD) (t : Fin cfg0.N) :
    (dat0 V c).flushed 5 t = ((cfg0.win 5).blk t).view.read (Elt Ideal)
      (dense (V c main_v24) (V c main_arg0) (V c main_v26) (V c main_v27) (V c main_v25)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31, e40, e41, e50, e51⟩ := maps0 t
  have hN : grid0.N = 25 := N_0
  have ht : t.val < grid0.N := t.isLt
  funext j
  obtain ⟨p, q, rfl⟩ : ∃ (p : Fin 2000) (q : Fin 128), j = ix2 p q := ⟨j 0, j 1, eq_ix2 j⟩
  have hp := p.isLt
  have hrow : t.val * 2000 + p.val < 50000 := by omega
  have hemb : ((cfg0.win 5).blk t).view.emb (ix2 p q) = ix2 (⟨t.val * 2000 + p.val, hrow⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = dense (V c main_v24) (V c main_arg0) (V c main_v26) (V c main_v27) (V c main_v25) (((cfg0.win 5).blk t).view.emb (ix2 p q))
  rw [hemb]
  refine block_entry0 _ _ _ _ _ _ _ _ _ _ p q _ ?_ ?_ ?_ ?_ ?_
  · intro k
    show V c main_v24 (((cfg0.win 0).blk t).view.emb (ix2 p k)) = V c main_v24 (ix2 (⟨t.val * 2000 + p.val, hrow⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c main_arg0 (((cfg0.win 1).blk t).view.emb (ix2 p k)) = V c main_arg0 (ix2 (⟨t.val * 2000 + p.val, hrow⟩ : Fin 50000) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · funext y
    show V c main_v26 (((cfg0.win 2).blk t).view.emb y) = V c main_v26 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v27 (((cfg0.win 3).blk t).view.emb y) = V c main_v27 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v25 (((cfg0.win 4).blk t).view.emb y) = V c main_v25 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An entry of the output array lies in a grid point's block iff its row is among that block's 2000 rows. -/
theorem mem_block0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every entry of the output array is in the block of the grid point row / 2000: the 25 blocks tile the 50000 rows. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have hlt : (i 0).val / 2000 < grid0.N := by omega
  refine ⟨⟨(i 0).val / 2000, hlt⟩, flush0_5 _, ?_⟩
  obtain ⟨-, -, -, -, -, -, -, -, -, -, e50, e51⟩ := maps0 ⟨(i 0).val / 2000, hlt⟩
  rw [mem_block0]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hlt⟩ (1 : Fin 2) * 128 ≤ (i 1).val ∧ (i 1).val < win0_5.index ⟨(i 0).val / 2000, hlt⟩ (1 : Fin 2) * 128 + 128
    rw [e51]; omega

/-- The output array after pallas_call 0: the layer's dense half of the five arrays the call finds. -/
theorem region0 (c : Dev nD) :
    (dat0 V c).arrAt 5 cfg0.N = dense (V c main_v24) (V c main_arg0) (V c main_v26) (V c main_v27) (V c main_v25) :=
  (dat0 V c).arrAt_eq_of_cover 5 _ (fun t _ => flushed0 V c t) (cover0)

/-! ## pallas_call 1 -/

/-- The printed index maps over the 25 grid points: the two row-blocked inputs move with the output (block t holds
    rows 2000·t … 2000·t + 1999), the weights and the bias row stay at block 0. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point t writes back is block t of the layer's dense half of the five arrays the call finds. -/
theorem flushed1 (c : Dev nD) (t : Fin cfg1.N) :
    (dat1 V c).flushed 5 t = ((cfg1.win 5).blk t).view.read (Elt Ideal)
      (dense (V c main_v40) (V c main_v28) (V c main_v42) (V c main_v43) (V c main_v41)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31, e40, e41, e50, e51⟩ := maps1 t
  have hN : grid1.N = 25 := N_1
  have ht : t.val < grid1.N := t.isLt
  funext j
  obtain ⟨p, q, rfl⟩ : ∃ (p : Fin 2000) (q : Fin 128), j = ix2 p q := ⟨j 0, j 1, eq_ix2 j⟩
  have hp := p.isLt
  have hrow : t.val * 2000 + p.val < 50000 := by omega
  have hemb : ((cfg1.win 5).blk t).view.emb (ix2 p q) = ix2 (⟨t.val * 2000 + p.val, hrow⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = dense (V c main_v40) (V c main_v28) (V c main_v42) (V c main_v43) (V c main_v41) (((cfg1.win 5).blk t).view.emb (ix2 p q))
  rw [hemb]
  refine block_entry1 _ _ _ _ _ _ _ _ _ _ p q _ ?_ ?_ ?_ ?_ ?_
  · intro k
    show V c main_v40 (((cfg1.win 0).blk t).view.emb (ix2 p k)) = V c main_v40 (ix2 (⟨t.val * 2000 + p.val, hrow⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v28 (((cfg1.win 1).blk t).view.emb (ix2 p k)) = V c main_v28 (ix2 (⟨t.val * 2000 + p.val, hrow⟩ : Fin 50000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_v42 (((cfg1.win 2).blk t).view.emb y) = V c main_v42 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v43 (((cfg1.win 3).blk t).view.emb y) = V c main_v43 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v41 (((cfg1.win 4).blk t).view.emb y) = V c main_v41 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An entry of the output array lies in a grid point's block iff its row is among that block's 2000 rows. -/
theorem mem_block1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44).slice (win1_5.rect t)).set ↔ _
  rw [View.set_slice_whole, Rect.mem_set_unit]
  exact Iff.rfl

/-- Every entry of the output array is in the block of the grid point row / 2000: the 25 blocks tile the 50000 rows. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  have hlt : (i 0).val / 2000 < grid1.N := by omega
  refine ⟨⟨(i 0).val / 2000, hlt⟩, flush1_5 _, ?_⟩
  obtain ⟨-, -, -, -, -, -, -, -, -, -, e50, e51⟩ := maps1 ⟨(i 0).val / 2000, hlt⟩
  rw [mem_block1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-- The output array after pallas_call 1: the layer's dense half of the five arrays the call finds. -/
theorem region1 (c : Dev nD) :
    (dat1 V c).arrAt 5 cfg1.N = dense (V c main_v40) (V c main_v28) (V c main_v42) (V c main_v43) (V c main_v41) :=
  (dat1 V c).arrAt_eq_of_cover 5 _ (fun t _ => flushed1 V c t) (cover1)

/-! ## pallas_call 2 -/

/-- The printed index maps over the 25 grid points: the two row-blocked inputs move with the output (block t holds
    rows 2000·t … 2000·t + 1999), the weights and the bias row stay at block 0. -/
theorem maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point t writes back is block t of the layer's dense half of the five arrays the call finds. -/
theorem flushed2 (c : Dev nD) (t : Fin cfg2.N) :
    (dat2 V c).flushed 5 t = ((cfg2.win 5).blk t).view.read (Elt Ideal)
      (dense (V c main_v56) (V c main_v44) (V c main_v58) (V c main_v59) (V c main_v57)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S128x128) zero_offsets,
    View.ld_unit_zero (S := S1x128) zero_offsets]
  obtain ⟨e00, e01, e10, e11, e20, e21, e30, e31, e40, e41, e50, e51⟩ := maps2 t
  have hN : grid2.N = 25 := N_2
  have ht : t.val < grid2.N := t.isLt
  funext j
  obtain ⟨p, q, rfl⟩ : ∃ (p : Fin 2000) (q : Fin 128), j = ix2 p q := ⟨j 0, j 1, eq_ix2 j⟩
  have hp := p.isLt
  have hrow : t.val * 2000 + p.val < 50000 := by omega
  have hemb : ((cfg2.win 5).blk t).view.emb (ix2 p q) = ix2 (⟨t.val * 2000 + p.val, hrow⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (iblk2 V c 0 t) (iblk2 V c 1 t) (iblk2 V c 2 t) (iblk2 V c 3 t) (iblk2 V c 4 t) (ix2 p q)
    = dense (V c main_v56) (V c main_v44) (V c main_v58) (V c main_v59) (V c main_v57) (((cfg2.win 5).blk t).view.emb (ix2 p q))
  rw [hemb]
  refine block_entry2 _ _ _ _ _ _ _ _ _ _ p q _ ?_ ?_ ?_ ?_ ?_
  · intro k
    show V c main_v56 (((cfg2.win 0).blk t).view.emb (ix2 p k)) = V c main_v56 (ix2 (⟨t.val * 2000 + p.val, hrow⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro k
    show V c main_v44 (((cfg2.win 1).blk t).view.emb (ix2 p k)) = V c main_v44 (ix2 (⟨t.val * 2000 + p.val, hrow⟩ : Fin 50000) k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · funext y
    show V c main_v58 (((cfg2.win 2).blk t).view.emb y) = V c main_v58 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v59 (((cfg2.win 3).blk t).view.emb y) = V c main_v59 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · funext y
    show V c main_v57 (((cfg2.win 4).blk t).view.emb y) = V c main_v57 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega

/-- An entry of the output array lies in a grid point's block iff its row is among that block's 2000 rows. -/
theorem mem_block2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v60).slice (win2_5.rect t)).set ↔ _
  rw [View.set_slice_whole, Rect.mem_set_unit]
  exact Iff.rfl

/-- Every entry of the output array is in the block of the grid point row / 2000: the 25 blocks tile the 50000 rows. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 25 := N_2
  have hlt : (i 0).val / 2000 < grid2.N := by omega
  refine ⟨⟨(i 0).val / 2000, hlt⟩, flush2_5 _, ?_⟩
  obtain ⟨-, -, -, -, -, -, -, -, -, -, e50, e51⟩ := maps2 ⟨(i 0).val / 2000, hlt⟩
  rw [mem_block2]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 128 ≤ (i 1).val ∧ (i 1).val < win2_5.index ⟨(i 0).val / 2000, hlt⟩ (1 : Fin 2) * 128 + 128
    rw [e51]; omega

/-- The output array after pallas_call 2: the layer's dense half of the five arrays the call finds. -/
theorem region2 (c : Dev nD) :
    (dat2 V c).arrAt 5 cfg2.N = dense (V c main_v56) (V c main_v44) (V c main_v58) (V c main_v59) (V c main_v57) :=
  (dat2 V c).arrAt_eq_of_cover 5 _ (fun t _ => flushed2 V c t) (cover2)

end Cert.Sage

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.SageLayers.lean ====
/-
  One SAGE layer as a whole-array function, in each program's spelling (that the two are one function is the next module).

  Both programs read the edge list E (row 0 the source node of each edge, row 1 its destination), gather the
  source rows of the feature matrix h, scatter-add them at the destinations into the neighbour sum, and
  scatter-add ones at the destinations into the in-degree; negative source indices are wrapped by the node
  count first.  These stretches are the same operations on the same operands in both programs, so they are
  kept whole here and never opened: the two programs' dimension records are equal as records.

  The kernel's program then scales the neighbour sum by the reciprocal column 1 / max(deg, 1) and hands the
  aggregate, h, the two transposed weight matrices and the bias row to its dense half (SageLaw's `dense`:
  (agg·Wlᵀ + h·Wrᵀ) + b, clamped at 0).  The reference divides the neighbour sum by max(deg, 1), multiplies by
  Wlᵀ, adds the bias, adds h·Wrᵀ, and clamps at 0.  Entry by entry the two are the two sides of SageLaw's
  `entry_law`.
-/
import proofs.«147117_j12266426598044_1_alg».proof.Proof.Gen.KernelIdeal
import proofs.«147117_j12266426598044_1_alg».proof.Proof.Gen.ReferenceIdeal.Read
import proofs.«147117_j12266426598044_1_alg».proof.Proof.SageLaw
import proofs.«147117_j12266426598044_1_alg».proof.Proof.LibDotGeneralAt
import proofs.«147117_j12266426598044_1_alg».proof.Proof.LibHostRowColumn
import Idealize.ShloMosaic.Lib.ValueLayout
import Idealize.ShloMosaic.Lib.Pipeline.Value

noncomputable section

namespace Cert.Sage

open Idealize.ShloMosaic Idealize.ShloMosaic.ValueIdx

/-! ## The array types (the two programs print the same shapes) -/

abbrev Edges := IVec (⟨2, ![2, 800000]⟩ : Shape) 32
abbrev Feats := FVec Ideal (⟨2, ![50000, 128]⟩ : Shape) .f32
abbrev Weights := FVec Ideal (⟨2, ![128, 128]⟩ : Shape) .f32
abbrev Bias := FVec Ideal (⟨1, ![128]⟩ : Shape) .f32

/-- A scalar constant broadcast to any shape reads, everywhere, the constant's value. -/
theorem splat_apply {t : Shape} (h : (⟨0, ![]⟩ : Shape).BroadcastsInDim t (![] : Fin 0 → Fin t.rank)) (w : BitVec 32) (j : t.Idx) :
    broadcastInDim t ![] h (constant (F := Ideal) ⟨0, ![]⟩ .f32 w) j = Ideal.ofBits .f32 w :=
  broadcastInDim_apply _ h _ j ix0 (fun a => a.elim0)

/-! ## The reference's spelling -/

namespace R

open Cert.ReferenceIdeal Cert.ReferenceIdeal.Gen

/-- The destination node of each edge, as a column of scatter indices. -/
def dstCol (E : Edges) : IVec S800000x1 32 := broadcastInDim S800000x1 ![0] bcast_S800000_S800000x1_0 (shapeCast _ (extractStridedSlice S1x800000 ![1, 0] E slices_S2x800000_S1x800000_1_0) shapeCasts_S1x800000_S800000)
/-- The source node of each edge (a negative index wrapped by the node count), as a column of gather indices. -/
def srcCol (E : Edges) : IVec S800000x1 32 := broadcastInDim S800000x1 ![0] bcast_S800000_S800000x1_0 (select (cmpi .slt (shapeCast _ (extractStridedSlice S1x800000 ![0, 0] E slices_S2x800000_S1x800000_0_0) shapeCasts_S1x800000_S800000) (broadcastInDim S800000 ![] bcast_S_S800000 (constantI S_ 32 0#32))) (addi (shapeCast _ (extractStridedSlice S1x800000 ![0, 0] E slices_S2x800000_S1x800000_0_0) shapeCasts_S1x800000_S800000) (broadcastInDim S800000 ![] bcast_S_S800000 (constantI S_ 32 50000#32))) (shapeCast _ (extractStridedSlice S1x800000 ![0, 0] E slices_S2x800000_S1x800000_0_0) shapeCasts_S1x800000_S800000))
/-- The sum of the source rows of `h` over each node's incoming edges. -/
def nbrSum (E : Edges) (h : Feats) : Feats :=
  Host.scatterAdd scatter_S50000x128_S800000x1_S800000x128_1_0_0_1 (broadcastInDim S50000x128 ![] bcast_S_S50000x128 (constant S_ .f32 0x00000000#32)) (dstCol E) (Host.gather gather_S50000x128_S800000x1_S800000x128_1_0_n_n_0_1_1128 h (srcCol E))
/-- The in-degree of each node. -/
def deg (E : Edges) : FVec Ideal S50000 .f32 :=
  Host.scatterAdd scatter_S50000_S800000x1_S800000_n_0_0_1 (broadcastInDim S50000 ![] bcast_S_S50000 (constant S_ .f32 0x00000000#32)) (dstCol E) (broadcastInDim S800000 ![] bcast_S_S800000 (constant S_ .f32 0x3F800000#32))
/-- The in-degree clamped from below by 1. -/
def clamp (E : Edges) : FVec Ideal S50000 .f32 :=
  maximumf (deg E) (broadcastInDim S50000 ![] bcast_S_S50000 (constant S_ .f32 0x3F800000#32))

/-- One layer, as the reference spells it. -/
def layer (E : Edges) (h : Feats) (Wl Wr : Weights) (b : Bias) : Feats :=
  maximumf (addf (addf (Host.dotGeneral dot_S50000x128_S128x128_S50000x128_1_0_0_1_n_n none (Host.divf (nbrSum E h) (broadcastInDim S50000x128 ![0, 1] bcast_S50000x1_S50000x128_0_1 (broadcastInDim S50000x1 ![0] bcast_S50000_S50000x1_0 (clamp E)))) (transpose S128x128 [1, 0] Wl transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none h (transpose S128x128 [1, 0] Wr transposes_S128x128_S128x128_1_0))) (broadcastInDim S50000x128 ![] bcast_S_S50000x128 (constant S_ .f32 0x00000000#32))

end R

/-! ## The kernel program's spelling -/

namespace K

open Cert.KernelIdeal Cert.KernelIdeal.Gen

/-- The source node of each edge. -/
def src (E : Edges) : IVec S800000 32 := shapeCast _ (extractStridedSlice S1x800000 ![0, 0] E slices_S2x800000_S1x800000_0_0) shapeCasts_S1x800000_S800000
/-- The destination node of each edge. -/
def dst (E : Edges) : IVec S800000 32 := shapeCast _ (extractStridedSlice S1x800000 ![1, 0] E slices_S2x800000_S1x800000_1_0) shapeCasts_S1x800000_S800000

/-- The sum of the source rows of `h` over each node's incoming edges, from the two index vectors. -/
def nbrSumOf (s d : IVec S800000 32) (h : Feats) : Feats :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 h (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))
/-- The in-degree of each node. -/
def degOf (d : IVec S800000 32) : FVec Ideal S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))
/-- The column of reciprocals 1 / max(deg, 1). -/
def invOf (d : IVec S800000 32) : FVec Ideal S50000x1 .f32 :=
  broadcastInDim S50000x1 ![0] bcast_S50000_S50000x1_0 (Host.divf (broadcastInDim S50000 ![] bcast_S_S50000 (constant S_ .f32 0x3F800000#32)) (maximumf (degOf d) (broadcastInDim S50000 ![] bcast_S_S50000 (constant S_ .f32 0x3F800000#32))))
/-- The mean aggregate: the neighbour sum scaled by the reciprocal column. -/
def aggOf (s d : IVec S800000 32) (inv : FVec Ideal S50000x1 .f32) (h : Feats) : Feats :=
  mulf (nbrSumOf s d h) (broadcastInDim S50000x128 ![0, 1] bcast_S50000x1_S50000x128_0_1 inv)

/-- One layer, as the kernel's program spells it: the host stretch's aggregate into the pallas_call's dense half. -/
def layer (E : Edges) (h : Feats) (Wl Wr : Weights) (b : Bias) : Feats :=
  dense (aggOf (src E) (dst E) (invOf (dst E)) h) h (transpose S128x128 [1, 0] Wl transposes_S128x128_S128x128_1_0) (transpose S128x128 [1, 0] Wr transposes_S128x128_S128x128_1_0) (shapeCast _ b shapeCasts_S128_S1x128)

end K

end Cert.Sage

end
-- ==== Proof.KernelFold.lean ====
/-
  The value of the kernel program's result, by walking the boundary contents from the launch to the return.

  Between segments the TensorCore's buffers hold: after the first host stretch, the two index vectors, the
  reciprocal-degree column, the first aggregate and the first layer's transposed weights and bias row; after the
  first pallas_call, additionally the first layer's output (the dense half of what the call found); and so on
  for the second and third layers, each host stretch re-reading the index vectors and the reciprocal column the
  first stretch left and the previous call's output.  A host stretch changes only the buffers it writes and a
  pallas_call only its output array, so every value read later is what was written earlier, and the result
  buffer ends at the kernel program's layer function applied three times to the arguments.
-/
import proofs.«147117_j12266426598044_1_alg».proof.Proof.Gen.KernelIdeal.Frame
import proofs.«147117_j12266426598044_1_alg».proof.Proof.RegionValue
import proofs.«147117_j12266426598044_1_alg».proof.Proof.SageLayers
import Idealize.ShloMosaic.Lib.StableHlo.Run

set_option maxRecDepth 16384

noncomputable section

namespace Cert.Sage.Fold

open Cert.Sage Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch -/

theorem s1_src : W1 m ρ c (Proc.devRef .tc main_v1) = K.src (m ((c : Thread nD τ).loc main_arg1)) := by
  show StableHlo.after hostOps0 (W0 m ρ c) (Proc.devRef .tc main_v1) = _
  after_results_simp <;> rfl

theorem s1_dst : W1 m ρ c (Proc.devRef .tc main_v3) = K.dst (m ((c : Thread nD τ).loc main_arg1)) := by
  show StableHlo.after hostOps0 (W0 m ρ c) (Proc.devRef .tc main_v3) = _
  after_results_simp <;> rfl

theorem s1_inv : W1 m ρ c (Proc.devRef .tc main_v12) = K.invOf (K.dst (m ((c : Thread nD τ).loc main_arg1))) := by
  show StableHlo.after hostOps0 (W0 m ρ c) (Proc.devRef .tc main_v12) = _
  after_results_simp <;> rfl

theorem s1_agg : W1 m ρ c (Proc.devRef .tc main_v24) = K.aggOf (K.src (m ((c : Thread nD τ).loc main_arg1))) (K.dst (m ((c : Thread nD τ).loc main_arg1))) (K.invOf (K.dst (m ((c : Thread nD τ).loc main_arg1)))) (m ((c : Thread nD τ).loc main_arg0)) := by
  show StableHlo.after hostOps0 (W0 m ρ c) (Proc.devRef .tc main_v24) = _
  after_results_simp <;> rfl

theorem s1_bias : W1 m ρ c (Proc.devRef .tc main_v25) = (shapeCast _ (m ((c : Thread nD τ).loc main_arg4)) shapeCasts_S128_S1x128) := by
  show StableHlo.after hostOps0 (W0 m ρ c) (Proc.devRef .tc main_v25) = _
  after_results_simp <;> rfl

theorem s1_wl : W1 m ρ c (Proc.devRef .tc main_v26) = (transpose S128x128 [1, 0] (m ((c : Thread nD τ).loc main_arg2)) transposes_S128x128_S128x128_1_0) := by
  show StableHlo.after hostOps0 (W0 m ρ c) (Proc.devRef .tc main_v26) = _
  after_results_simp <;> rfl

theorem s1_wr : W1 m ρ c (Proc.devRef .tc main_v27) = (transpose S128x128 [1, 0] (m ((c : Thread nD τ).loc main_arg3)) transposes_S128x128_S128x128_1_0) := by
  show StableHlo.after hostOps0 (W0 m ρ c) (Proc.devRef .tc main_v27) = _
  after_results_simp <;> rfl

theorem s1_arg0 : W1 m ρ c (Proc.devRef .tc main_arg0) = (m ((c : Thread nD τ).loc main_arg0)) := by
  show StableHlo.after hostOps0 (W0 m ρ c) (Proc.devRef .tc main_arg0) = _
  after_results_simp <;> rfl

theorem s1_arg5 : W1 m ρ c (Proc.devRef .tc main_arg5) = (m ((c : Thread nD τ).loc main_arg5)) := by
  show StableHlo.after hostOps0 (W0 m ρ c) (Proc.devRef .tc main_arg5) = _
  after_results_simp <;> rfl

theorem s1_arg6 : W1 m ρ c (Proc.devRef .tc main_arg6) = (m ((c : Thread nD τ).loc main_arg6)) := by
  show StableHlo.after hostOps0 (W0 m ρ c) (Proc.devRef .tc main_arg6) = _
  after_results_simp <;> rfl

theorem s1_arg7 : W1 m ρ c (Proc.devRef .tc main_arg7) = (m ((c : Thread nD τ).loc main_arg7)) := by
  show StableHlo.after hostOps0 (W0 m ρ c) (Proc.devRef .tc main_arg7) = _
  after_results_simp <;> rfl

theorem s1_arg8 : W1 m ρ c (Proc.devRef .tc main_arg8) = (m ((c : Thread nD τ).loc main_arg8)) := by
  show StableHlo.after hostOps0 (W0 m ρ c) (Proc.devRef .tc main_arg8) = _
  after_results_simp <;> rfl

theorem s1_arg9 : W1 m ρ c (Proc.devRef .tc main_arg9) = (m ((c : Thread nD τ).loc main_arg9)) := by
  show StableHlo.after hostOps0 (W0 m ρ c) (Proc.devRef .tc main_arg9) = _
  after_results_simp <;> rfl

theorem s1_arg10 : W1 m ρ c (Proc.devRef .tc main_arg10) = (m ((c : Thread nD τ).loc main_arg10)) := by
  show StableHlo.after hostOps0 (W0 m ρ c) (Proc.devRef .tc main_arg10) = _
  after_results_simp <;> rfl

/-! ## After the first pallas_call -/

/-- The edge list and the three layers' outputs. -/
abbrev E := (m ((c : Thread nD τ).loc main_arg1))
abbrev H1 : Feats := K.layer (E m c) (m ((c : Thread nD τ).loc main_arg0)) (m ((c : Thread nD τ).loc main_arg2)) (m ((c : Thread nD τ).loc main_arg3)) (m ((c : Thread nD τ).loc main_arg4))
abbrev H2 : Feats := K.layer (E m c) (H1 m c) (m ((c : Thread nD τ).loc main_arg5)) (m ((c : Thread nD τ).loc main_arg6)) (m ((c : Thread nD τ).loc main_arg7))
abbrev H3 : Feats := K.layer (E m c) (H2 m c) (m ((c : Thread nD τ).loc main_arg8)) (m ((c : Thread nD τ).loc main_arg9)) (m ((c : Thread nD τ).loc main_arg10))

theorem s2_out : W2 m ρ c (Proc.devRef .tc main_v28) = H1 m c :=
  (W2_arr m ρ c 5).trans ((region0 (V1 m ρ) c).trans (by
    show dense (W1 m ρ c (Proc.devRef .tc main_v24)) (W1 m ρ c (Proc.devRef .tc main_arg0)) (W1 m ρ c (Proc.devRef .tc main_v26)) (W1 m ρ c (Proc.devRef .tc main_v27)) (W1 m ρ c (Proc.devRef .tc main_v25)) = _
    rw [s1_agg, s1_arg0, s1_wl, s1_wr, s1_bias]
    rfl))
theorem s2_v1 : W2 m ρ c (Proc.devRef .tc main_v1) = W1 m ρ c (Proc.devRef .tc main_v1) := W2_of_ne m ρ c main_v1 (by decide)
theorem s2_v3 : W2 m ρ c (Proc.devRef .tc main_v3) = W1 m ρ c (Proc.devRef .tc main_v3) := W2_of_ne m ρ c main_v3 (by decide)
theorem s2_v12 : W2 m ρ c (Proc.devRef .tc main_v12) = W1 m ρ c (Proc.devRef .tc main_v12) := W2_of_ne m ρ c main_v12 (by decide)
theorem s2_arg5 : W2 m ρ c (Proc.devRef .tc main_arg5) = W1 m ρ c (Proc.devRef .tc main_arg5) := W2_of_ne m ρ c main_arg5 (by decide)
theorem s2_arg6 : W2 m ρ c (Proc.devRef .tc main_arg6) = W1 m ρ c (Proc.devRef .tc main_arg6) := W2_of_ne m ρ c main_arg6 (by decide)
theorem s2_arg7 : W2 m ρ c (Proc.devRef .tc main_arg7) = W1 m ρ c (Proc.devRef .tc main_arg7) := W2_of_ne m ρ c main_arg7 (by decide)
theorem s2_arg8 : W2 m ρ c (Proc.devRef .tc main_arg8) = W1 m ρ c (Proc.devRef .tc main_arg8) := W2_of_ne m ρ c main_arg8 (by decide)
theorem s2_arg9 : W2 m ρ c (Proc.devRef .tc main_arg9) = W1 m ρ c (Proc.devRef .tc main_arg9) := W2_of_ne m ρ c main_arg9 (by decide)
theorem s2_arg10 : W2 m ρ c (Proc.devRef .tc main_arg10) = W1 m ρ c (Proc.devRef .tc main_arg10) := W2_of_ne m ρ c main_arg10 (by decide)

/-! ## After the second host stretch -/

theorem s3_agg : W3 m ρ c (Proc.devRef .tc main_v40) = K.aggOf (W2 m ρ c (Proc.devRef .tc main_v1)) (W2 m ρ c (Proc.devRef .tc main_v3)) (W2 m ρ c (Proc.devRef .tc main_v12)) (W2 m ρ c (Proc.devRef .tc main_v28)) := by
  show StableHlo.after hostOps1 (W2 m ρ c) (Proc.devRef .tc main_v40) = _
  after_results_simp <;> rfl

theorem s3_bias : W3 m ρ c (Proc.devRef .tc main_v41) = (shapeCast _ (W2 m ρ c (Proc.devRef .tc main_arg7)) shapeCasts_S128_S1x128) := by
  show StableHlo.after hostOps1 (W2 m ρ c) (Proc.devRef .tc main_v41) = _
  after_results_simp <;> rfl

theorem s3_wl : W3 m ρ c (Proc.devRef .tc main_v42) = (transpose S128x128 [1, 0] (W2 m ρ c (Proc.devRef .tc main_arg5)) transposes_S128x128_S128x128_1_0) := by
  show StableHlo.after hostOps1 (W2 m ρ c) (Proc.devRef .tc main_v42) = _
  after_results_simp <;> rfl

theorem s3_wr : W3 m ρ c (Proc.devRef .tc main_v43) = (transpose S128x128 [1, 0] (W2 m ρ c (Proc.devRef .tc main_arg6)) transposes_S128x128_S128x128_1_0) := by
  show StableHlo.after hostOps1 (W2 m ρ c) (Proc.devRef .tc main_v43) = _
  after_results_simp <;> rfl

theorem s3_v28 : W3 m ρ c (Proc.devRef .tc main_v28) = W2 m ρ c (Proc.devRef .tc main_v28) := by
  show StableHlo.after hostOps1 (W2 m ρ c) (Proc.devRef .tc main_v28) = _
  after_results_simp <;> rfl

theorem s3_v1 : W3 m ρ c (Proc.devRef .tc main_v1) = W2 m ρ c (Proc.devRef .tc main_v1) := by
  show StableHlo.after hostOps1 (W2 m ρ c) (Proc.devRef .tc main_v1) = _
  after_results_simp <;> rfl

theorem s3_v3 : W3 m ρ c (Proc.devRef .tc main_v3) = W2 m ρ c (Proc.devRef .tc main_v3) := by
  show StableHlo.after hostOps1 (W2 m ρ c) (Proc.devRef .tc main_v3) = _
  after_results_simp <;> rfl

theorem s3_v12 : W3 m ρ c (Proc.devRef .tc main_v12) = W2 m ρ c (Proc.devRef .tc main_v12) := by
  show StableHlo.after hostOps1 (W2 m ρ c) (Proc.devRef .tc main_v12) = _
  after_results_simp <;> rfl

theorem s3_arg8 : W3 m ρ c (Proc.devRef .tc main_arg8) = W2 m ρ c (Proc.devRef .tc main_arg8) := by
  show StableHlo.after hostOps1 (W2 m ρ c) (Proc.devRef .tc main_arg8) = _
  after_results_simp <;> rfl

theorem s3_arg9 : W3 m ρ c (Proc.devRef .tc main_arg9) = W2 m ρ c (Proc.devRef .tc main_arg9) := by
  show StableHlo.after hostOps1 (W2 m ρ c) (Proc.devRef .tc main_arg9) = _
  after_results_simp <;> rfl

theorem s3_arg10 : W3 m ρ c (Proc.devRef .tc main_arg10) = W2 m ρ c (Proc.devRef .tc main_arg10) := by
  show StableHlo.after hostOps1 (W2 m ρ c) (Proc.devRef .tc main_arg10) = _
  after_results_simp <;> rfl

/-! ## After the second pallas_call -/

theorem s4_out : W4 m ρ c (Proc.devRef .tc main_v44) = H2 m c :=
  (W4_arr m ρ c 5).trans ((region1 (V3 m ρ) c).trans (by
    show dense (W3 m ρ c (Proc.devRef .tc main_v40)) (W3 m ρ c (Proc.devRef .tc main_v28)) (W3 m ρ c (Proc.devRef .tc main_v42)) (W3 m ρ c (Proc.devRef .tc main_v43)) (W3 m ρ c (Proc.devRef .tc main_v41)) = _
    rw [s3_agg, s3_v28, s3_wl, s3_wr, s3_bias, s2_v1, s2_v3, s2_v12, s2_out, s2_arg5, s2_arg6, s2_arg7,
      s1_src, s1_dst, s1_inv, s1_arg5, s1_arg6, s1_arg7]
    rfl))
theorem s4_v1 : W4 m ρ c (Proc.devRef .tc main_v1) = W3 m ρ c (Proc.devRef .tc main_v1) := W4_of_ne m ρ c main_v1 (by decide)
theorem s4_v3 : W4 m ρ c (Proc.devRef .tc main_v3) = W3 m ρ c (Proc.devRef .tc main_v3) := W4_of_ne m ρ c main_v3 (by decide)
theorem s4_v12 : W4 m ρ c (Proc.devRef .tc main_v12) = W3 m ρ c (Proc.devRef .tc main_v12) := W4_of_ne m ρ c main_v12 (by decide)
theorem s4_arg8 : W4 m ρ c (Proc.devRef .tc main_arg8) = W3 m ρ c (Proc.devRef .tc main_arg8) := W4_of_ne m ρ c main_arg8 (by decide)
theorem s4_arg9 : W4 m ρ c (Proc.devRef .tc main_arg9) = W3 m ρ c (Proc.devRef .tc main_arg9) := W4_of_ne m ρ c main_arg9 (by decide)
theorem s4_arg10 : W4 m ρ c (Proc.devRef .tc main_arg10) = W3 m ρ c (Proc.devRef .tc main_arg10) := W4_of_ne m ρ c main_arg10 (by decide)

/-! ## After the third host stretch -/

theorem s5_agg : W5 m ρ c (Proc.devRef .tc main_v56) = K.aggOf (W4 m ρ c (Proc.devRef .tc main_v1)) (W4 m ρ c (Proc.devRef .tc main_v3)) (W4 m ρ c (Proc.devRef .tc main_v12)) (W4 m ρ c (Proc.devRef .tc main_v44)) := by
  show StableHlo.after hostOps2 (W4 m ρ c) (Proc.devRef .tc main_v56) = _
  after_results_simp <;> rfl

theorem s5_bias : W5 m ρ c (Proc.devRef .tc main_v57) = (shapeCast _ (W4 m ρ c (Proc.devRef .tc main_arg10)) shapeCasts_S128_S1x128) := by
  show StableHlo.after hostOps2 (W4 m ρ c) (Proc.devRef .tc main_v57) = _
  after_results_simp <;> rfl

theorem s5_wl : W5 m ρ c (Proc.devRef .tc main_v58) = (transpose S128x128 [1, 0] (W4 m ρ c (Proc.devRef .tc main_arg8)) transposes_S128x128_S128x128_1_0) := by
  show StableHlo.after hostOps2 (W4 m ρ c) (Proc.devRef .tc main_v58) = _
  after_results_simp <;> rfl

theorem s5_wr : W5 m ρ c (Proc.devRef .tc main_v59) = (transpose S128x128 [1, 0] (W4 m ρ c (Proc.devRef .tc main_arg9)) transposes_S128x128_S128x128_1_0) := by
  show StableHlo.after hostOps2 (W4 m ρ c) (Proc.devRef .tc main_v59) = _
  after_results_simp <;> rfl

theorem s5_v44 : W5 m ρ c (Proc.devRef .tc main_v44) = W4 m ρ c (Proc.devRef .tc main_v44) := by
  show StableHlo.after hostOps2 (W4 m ρ c) (Proc.devRef .tc main_v44) = _
  after_results_simp <;> rfl

/-! ## After the third pallas_call: the result -/

/-- The result buffer at the return: the kernel program's layer applied three times to the arguments. -/
theorem result_value : W6 m ρ c (Proc.devRef .tc main_v60) = H3 m c :=
  (W6_arr m ρ c 5).trans ((region2 (V5 m ρ) c).trans (by
    show dense (W5 m ρ c (Proc.devRef .tc main_v56)) (W5 m ρ c (Proc.devRef .tc main_v44)) (W5 m ρ c (Proc.devRef .tc main_v58)) (W5 m ρ c (Proc.devRef .tc main_v59)) (W5 m ρ c (Proc.devRef .tc main_v57)) = _
    rw [s5_agg, s5_v44, s5_wl, s5_wr, s5_bias, s4_v1, s4_v3, s4_v12, s4_out, s4_arg8, s4_arg9, s4_arg10,
      s3_v1, s3_v3, s3_v12, s3_arg8, s3_arg9, s3_arg10, s2_v1, s2_v3, s2_v12, s2_arg8, s2_arg9, s2_arg10,
      s1_src, s1_dst, s1_inv, s1_arg8, s1_arg9, s1_arg10]
    rfl))

end Cert.Sage.Fold

end
-- ==== Proof.RefValue.lean ====
/-
  The reference's result is its layer function applied three times to the arguments.

  The reference's run ends with its result buffer at the composed term of its host operations; that term is
  the reference's layer (gather, scatter-add, divide by the clamped in-degree, two matrix products, bias, clamp
  at 0) of the features and the first layer's parameters, then the same layer of that and the second layer's
  parameters, then of that and the third's: the in-degree is recomputed inside each layer, always from the same
  edge list.
-/
import proofs.«147117_j12266426598044_1_alg».proof.Proof.Gen.ReferenceIdeal.Run
import proofs.«147117_j12266426598044_1_alg».proof.Proof.SageLayers

set_option maxRecDepth 16384

noncomputable section

namespace Cert.Sage.Ref

open Cert.Sage Cert.ReferenceIdeal Cert.ReferenceIdeal.Gen
open Idealize.ShloMosaic Idealize.ShloMosaic.TcCoe Idealize.SL.Sem

variable (m : (ℓ : Loc nD τ sig) → Buf (Elt Ideal) ℓ) (c : Dev nD)

set_option maxHeartbeats 4000000 in
/-- The reference's result term is three applications of its layer. -/
theorem result_value :
    Cert.ReferenceIdeal.Value.res_main_v87 (F := Ideal) m c
      = R.layer (m ((c.tc : Thread nD τ).loc main_arg1)) (R.layer (m ((c.tc : Thread nD τ).loc main_arg1)) (R.layer (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) := by
  unfold Cert.ReferenceIdeal.Value.res_main_v87
  rfl

end Cert.Sage.Ref

end
-- ==== Proof.SageBridge.lean ====
/-
  The kernel program's layer and the reference's layer are one function.

  Both layers are first rewritten over the SAME neighbour sum S and in-degree D (the two programs compute them
  by the same gather and scatter-adds, with equal dimension records), which from then on are two arbitrary
  arrays: nothing about them is used.  Read at an entry (r, c), the kernel program's form is
  max((Σ_k (S[r,k]·(1 / max(D[r],1)))·Wl[c,k] + Σ_k h[r,k]·Wr[c,k]) + b[c], 0) and the reference's is
  max((Σ_k (S[r,k] / max(D[r],1))·Wl[c,k] + b[c]) + Σ_k h[r,k]·Wr[c,k], 0): the two sides of SageLaw's
  `entry_law`.
-/
import proofs.«147117_j12266426598044_1_alg».proof.Proof.SageLayers
import proofs.«147117_j12266426598044_1_alg».proof.Proof.Gen.ReferenceIdeal.Read
import proofs.«147117_j12266426598044_1_alg».proof.Proof.SageLaw
import proofs.«147117_j12266426598044_1_alg».proof.Proof.LibDotGeneralAt
import proofs.«147117_j12266426598044_1_alg».proof.Proof.LibHostRowColumn
import Idealize.ShloMosaic.Lib.ValueLayout
import Idealize.ShloMosaic.Lib.Pipeline.Value

noncomputable section

namespace Cert.Sage

open Idealize.ShloMosaic Idealize.ShloMosaic.ValueIdx
open Cert.Lib.HostRowColumn Cert.Lib.DotGeneralAt

/-- The in-degree array's type. -/
abbrev Degs := FVec Ideal (⟨1, ![50000]⟩ : Shape) .f32

/-! ## The two layers over an arbitrary neighbour sum and in-degree -/

/-- The kernel program's layer from the neighbour sum `S` and the in-degree `D`. -/
def kForm (S : Feats) (D : Degs) (h : Feats) (Wl Wr : Weights) (b : Bias) : Feats :=
  dense (mulf S (broadcastInDim Cert.KernelIdeal.S50000x128 ![0, 1] Cert.KernelIdeal.Gen.bcast_S50000x1_S50000x128_0_1 (broadcastInDim Cert.KernelIdeal.S50000x1 ![0] Cert.KernelIdeal.Gen.bcast_S50000_S50000x1_0 (Host.divf (broadcastInDim Cert.KernelIdeal.S50000 ![] Cert.KernelIdeal.Gen.bcast_S_S50000 (constant Cert.KernelIdeal.S_ .f32 0x3F800000#32)) (maximumf D (broadcastInDim Cert.KernelIdeal.S50000 ![] Cert.KernelIdeal.Gen.bcast_S_S50000 (constant Cert.KernelIdeal.S_ .f32 0x3F800000#32))))))) h (transpose Cert.KernelIdeal.S128x128 [1, 0] Wl Cert.KernelIdeal.Gen.transposes_S128x128_S128x128_1_0) (transpose Cert.KernelIdeal.S128x128 [1, 0] Wr Cert.KernelIdeal.Gen.transposes_S128x128_S128x128_1_0) (shapeCast Cert.KernelIdeal.S1x128 b Cert.KernelIdeal.Gen.shapeCasts_S128_S1x128)

/-- The reference's layer from the neighbour sum `S` and the in-degree `D`. -/
def rForm (S : Feats) (D : Degs) (h : Feats) (Wl Wr : Weights) (b : Bias) : Feats :=
  maximumf (addf (addf (Host.dotGeneral Cert.ReferenceIdeal.dot_S50000x128_S128x128_S50000x128_1_0_0_1_n_n none (Host.divf S (broadcastInDim Cert.ReferenceIdeal.S50000x128 ![0, 1] Cert.ReferenceIdeal.Gen.bcast_S50000x1_S50000x128_0_1 (broadcastInDim Cert.ReferenceIdeal.S50000x1 ![0] Cert.ReferenceIdeal.Gen.bcast_S50000_S50000x1_0 (maximumf D (broadcastInDim Cert.ReferenceIdeal.S50000 ![] Cert.ReferenceIdeal.Gen.bcast_S_S50000 (constant Cert.ReferenceIdeal.S_ .f32 0x3F800000#32)))))) (transpose Cert.ReferenceIdeal.S128x128 [1, 0] Wl Cert.ReferenceIdeal.Gen.transposes_S128x128_S128x128_1_0)) (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b))) (Host.dotGeneral Cert.ReferenceIdeal.dot_S50000x128_S128x128_S50000x128_1_0_0_1_n_n none h (transpose Cert.ReferenceIdeal.S128x128 [1, 0] Wr Cert.ReferenceIdeal.Gen.transposes_S128x128_S128x128_1_0))) (broadcastInDim Cert.ReferenceIdeal.S50000x128 ![] Cert.ReferenceIdeal.Gen.bcast_S_S50000x128 (constant Cert.ReferenceIdeal.S_ .f32 0x00000000#32))

/-- Each program's layer is its form over the reference's neighbour sum and in-degree: the two programs' gather
    and scatter-add records are equal, so the kernel program's neighbour sum and in-degree are the reference's. -/
theorem K_layer_form (E : Edges) (h : Feats) (Wl Wr : Weights) (b : Bias) :
    K.layer E h Wl Wr b = kForm (R.nbrSum E h) (R.deg E) h Wl Wr b := rfl
theorem R_layer_form (E : Edges) (h : Feats) (Wl Wr : Weights) (b : Bias) :
    R.layer E h Wl Wr b = rForm (R.nbrSum E h) (R.deg E) h Wl Wr b := rfl

/-! ## The two forms at an entry -/

/-- The reciprocal column repeated across the features, at (r, k): 1 / max(D[r], 1). -/
theorem inv_apply (D : Degs) (r : Fin 50000) (k : Fin 128) :
    (broadcastInDim Cert.KernelIdeal.S50000x128 ![0, 1] Cert.KernelIdeal.Gen.bcast_S50000x1_S50000x128_0_1 (broadcastInDim Cert.KernelIdeal.S50000x1 ![0] Cert.KernelIdeal.Gen.bcast_S50000_S50000x1_0 (Host.divf (broadcastInDim Cert.KernelIdeal.S50000 ![] Cert.KernelIdeal.Gen.bcast_S_S50000 (constant Cert.KernelIdeal.S_ .f32 0x3F800000#32)) (maximumf D (broadcastInDim Cert.KernelIdeal.S50000 ![] Cert.KernelIdeal.Gen.bcast_S_S50000 (constant Cert.KernelIdeal.S_ .f32 0x3F800000#32)))))) (ix2 r k) = Ideal.div (Ideal.ofBits .f32 0x3F800000#32) (max (D (ix1 r)) (Ideal.ofBits .f32 0x3F800000#32)) :=
  (column_repeated _ _ _ r k).trans rfl

/-- The clamped in-degree repeated across the features, at (r, k): max(D[r], 1). -/
theorem clamp_apply (D : Degs) (r : Fin 50000) (k : Fin 128) :
    (broadcastInDim Cert.ReferenceIdeal.S50000x128 ![0, 1] Cert.ReferenceIdeal.Gen.bcast_S50000x1_S50000x128_0_1 (broadcastInDim Cert.ReferenceIdeal.S50000x1 ![0] Cert.ReferenceIdeal.Gen.bcast_S50000_S50000x1_0 (maximumf D (broadcastInDim Cert.ReferenceIdeal.S50000 ![] Cert.ReferenceIdeal.Gen.bcast_S_S50000 (constant Cert.ReferenceIdeal.S_ .f32 0x3F800000#32))))) (ix2 r k) = max (D (ix1 r)) (Ideal.ofBits .f32 0x3F800000#32) :=
  (column_repeated _ _ _ r k).trans rfl

theorem kForm_apply (S : Feats) (D : Degs) (h : Feats) (Wl Wr : Weights) (b : Bias) (r : Fin 50000) (c : Fin 128) :
    kForm S D h Wl Wr b (ix2 r c)
      = max ((∑ k : Fin 128, (S (ix2 r k) * Ideal.div (Ideal.ofBits .f32 0x3F800000#32) (max (D (ix1 r)) (Ideal.ofBits .f32 0x3F800000#32))) * Wl (ix2 c k)
          + ∑ k : Fin 128, h (ix2 r k) * Wr (ix2 c k)) + b (ix1 c)) (Ideal.ofBits .f32 0x00000000#32) := by
  unfold kForm
  rw [dense_ix2]
  unfold denseAt
  have tl : ∀ k : Fin 128, (transpose Cert.KernelIdeal.S128x128 [1, 0] Wl Cert.KernelIdeal.Gen.transposes_S128x128_S128x128_1_0) (ix2 k c) = Wl (ix2 c k) := fun k => transpose_ix2_apply _ _ _ _
  have tr : ∀ k : Fin 128, (transpose Cert.KernelIdeal.S128x128 [1, 0] Wr Cert.KernelIdeal.Gen.transposes_S128x128_S128x128_1_0) (ix2 k c) = Wr (ix2 c k) := fun k => transpose_ix2_apply _ _ _ _
  have ag : ∀ k : Fin 128, mulf S (broadcastInDim Cert.KernelIdeal.S50000x128 ![0, 1] Cert.KernelIdeal.Gen.bcast_S50000x1_S50000x128_0_1 (broadcastInDim Cert.KernelIdeal.S50000x1 ![0] Cert.KernelIdeal.Gen.bcast_S50000_S50000x1_0 (Host.divf (broadcastInDim Cert.KernelIdeal.S50000 ![] Cert.KernelIdeal.Gen.bcast_S_S50000 (constant Cert.KernelIdeal.S_ .f32 0x3F800000#32)) (maximumf D (broadcastInDim Cert.KernelIdeal.S50000 ![] Cert.KernelIdeal.Gen.bcast_S_S50000 (constant Cert.KernelIdeal.S_ .f32 0x3F800000#32)))))) (ix2 r k) = S (ix2 r k) * Ideal.div (Ideal.ofBits .f32 0x3F800000#32) (max (D (ix1 r)) (Ideal.ofBits .f32 0x3F800000#32)) :=
    fun k => by rw [mulf_apply, inv_apply]
  have bb : shapeCast Cert.KernelIdeal.S1x128 b Cert.KernelIdeal.Gen.shapeCasts_S128_S1x128 (ix2 (0 : Fin 1) c) = b (ix1 c) := shapeCast_a_1a_apply _ _ _ _
  simp only [tl, tr, ag, bb]

theorem rForm_apply (S : Feats) (D : Degs) (h : Feats) (Wl Wr : Weights) (b : Bias) (r : Fin 50000) (c : Fin 128) :
    rForm S D h Wl Wr b (ix2 r c)
      = max ((∑ k : Fin 128, Ideal.div (S (ix2 r k)) (max (D (ix1 r)) (Ideal.ofBits .f32 0x3F800000#32)) * Wl (ix2 c k) + b (ix1 c))
          + ∑ k : Fin 128, h (ix2 r k) * Wr (ix2 c k)) (Ideal.ofBits .f32 0x00000000#32) := by
  unfold rForm
  have z : (broadcastInDim Cert.ReferenceIdeal.S50000x128 ![] Cert.ReferenceIdeal.Gen.bcast_S_S50000x128 (constant Cert.ReferenceIdeal.S_ .f32 0x00000000#32)) (ix2 r c) = (Ideal.ofBits .f32 0x00000000#32) := rfl
  have bb : (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b)) (ix2 r c) = b (ix1 c) := row_repeated _ _ _ r c
  have tl : ∀ k : Fin 128, (transpose Cert.ReferenceIdeal.S128x128 [1, 0] Wl Cert.ReferenceIdeal.Gen.transposes_S128x128_S128x128_1_0) (ix2 k c) = Wl (ix2 c k) := fun k => transpose_ix2_apply _ _ _ _
  have tr : ∀ k : Fin 128, (transpose Cert.ReferenceIdeal.S128x128 [1, 0] Wr Cert.ReferenceIdeal.Gen.transposes_S128x128_S128x128_1_0) (ix2 k c) = Wr (ix2 c k) := fun k => transpose_ix2_apply _ _ _ _
  have dd : ∀ k : Fin 128, Host.divf S (broadcastInDim Cert.ReferenceIdeal.S50000x128 ![0, 1] Cert.ReferenceIdeal.Gen.bcast_S50000x1_S50000x128_0_1 (broadcastInDim Cert.ReferenceIdeal.S50000x1 ![0] Cert.ReferenceIdeal.Gen.bcast_S50000_S50000x1_0 (maximumf D (broadcastInDim Cert.ReferenceIdeal.S50000 ![] Cert.ReferenceIdeal.Gen.bcast_S_S50000 (constant Cert.ReferenceIdeal.S_ .f32 0x3F800000#32))))) (ix2 r k) = Ideal.div (S (ix2 r k)) (max (D (ix1 r)) (Ideal.ofBits .f32 0x3F800000#32)) :=
    fun k => (congrArg (Ideal.div (S (ix2 r k))) (clamp_apply D r k))
  rw [maximumf_apply, addf_apply, addf_apply, z, bb]
  simp only [Host.dotGeneral]
  rw [dotGeneral_at _ rfl rfl Cert.ReferenceIdeal.Read.lhs_main_v24_0 Cert.ReferenceIdeal.Read.lhs_main_v24_1 Cert.ReferenceIdeal.Read.rhs_main_v24_0 Cert.ReferenceIdeal.Read.rhs_main_v24_1,
    dotGeneral_at _ rfl rfl Cert.ReferenceIdeal.Read.lhs_main_v24_0 Cert.ReferenceIdeal.Read.lhs_main_v24_1 Cert.ReferenceIdeal.Read.rhs_main_v24_0 Cert.ReferenceIdeal.Read.rhs_main_v24_1]
  simp only [tl, tr, dd]

/-- The two forms are one function of S, D, h, the weights and the bias. -/
theorem form_eq (S : Feats) (D : Degs) (h : Feats) (Wl Wr : Weights) (b : Bias) : kForm S D h Wl Wr b = rForm S D h Wl Wr b := by
  funext i
  obtain ⟨r, c, rfl⟩ : ∃ (r : Fin 50000) (c : Fin 128), i = ix2 r c := ⟨i 0, i 1, eq_ix2 i⟩
  rw [kForm_apply, rForm_apply]
  exact entry_law (fun k => S (ix2 r k)) (D (ix1 r)) (fun k => Wl (ix2 c k)) (fun k => h (ix2 r k)) (fun k => Wr (ix2 c k)) (b (ix1 c))

/-- THE BRIDGE: the kernel program's layer and the reference's layer are one function of the edge list, the
    features, the two weight matrices and the bias — for all extended-real contents. -/
theorem layer_eq (E : Edges) (h : Feats) (Wl Wr : Weights) (b : Bias) : K.layer E h Wl Wr b = R.layer E h Wl Wr b := by
  rw [K_layer_form, R_layer_form]
  exact form_eq _ _ _ _ _ _

end Cert.Sage

end
-- ==== Proof.lean ====
/-
  Three stacked SAGE layers (mean aggregation over incoming edges, two linear maps, bias, ReLU) over 50000
  nodes with 128 features: the kernel's program against the plain reference, as extended reals.

  Per layer both programs gather the source rows of the features along the edges and scatter-add them at the
  destinations (S), and scatter-add ones at the destinations (deg); these host stretches are the same in both.
  The kernel's program scales S by the reciprocal column 1 / max(deg, 1) on the host and then runs one
  pallas_call over 25 blocks of 2000 rows that forms (agg·Wlᵀ + h·Wrᵀ) + b and clamps at 0; the reference
  divides S by max(deg, 1) and forms (agg·Wlᵀ + b) + h·Wrᵀ, clamped at 0.  On the extended reals
  x · (1 / D) = x / D for D ≠ 0, max(deg, 1) ≥ 1 is never 0, and sums re-associate, so each layer is ONE
  function of its inputs in both programs, for every input: the precondition is never opened.

  The modules: SageLaw (the entry formula and the law), DenseBlock (one grid point's stored value at an entry),
  RegionValue (a pallas_call's output array), SageLayers (a layer in each program's spelling), SageBridge (the two
  are one function), KernelRun (the kernel program's run with its result named), KernelFold (the result's value:
  the layer three times), RefValue (the reference's result: its layer three times).  The idealization rewrote
  nothing, so `preserves` is trivial; the two kernel frames are the generated ones and the reference's frame is
  its generated run with the result dropped.
-/
import proofs.«147117_j12266426598044_1_alg».proof.Defs
import proofs.«147117_j12266426598044_1_alg».proof.Proof.Gen.Kernel
import proofs.«147117_j12266426598044_1_alg».proof.Proof.Gen.Kernel.Skeleton
import proofs.«147117_j12266426598044_1_alg».proof.Proof.Gen.Kernel.Launch
import proofs.«147117_j12266426598044_1_alg».proof.Proof.Gen.Kernel.Points
import proofs.«147117_j12266426598044_1_alg».proof.Proof.Gen.Kernel.Frame
import proofs.«147117_j12266426598044_1_alg».proof.Proof.Gen.KernelIdeal
import proofs.«147117_j12266426598044_1_alg».proof.Proof.Gen.KernelIdeal.Skeleton
import proofs.«147117_j12266426598044_1_alg».proof.Proof.Gen.KernelIdeal.Launch
import proofs.«147117_j12266426598044_1_alg».proof.Proof.Gen.KernelIdeal.Points
import proofs.«147117_j12266426598044_1_alg».proof.Proof.Gen.KernelIdeal.Frame
import proofs.«147117_j12266426598044_1_alg».proof.Proof.Gen.ReferenceIdeal
import proofs.«147117_j12266426598044_1_alg».proof.Proof.Gen.Pre_finite_inputs
import proofs.«147117_j12266426598044_1_alg».proof.Proof.Gen.ReferenceIdeal.Run
import proofs.«147117_j12266426598044_1_alg».proof.Proof.Gen.ReferenceIdeal.Read
import proofs.«147117_j12266426598044_1_alg».proof.Proof.KernelRun
import proofs.«147117_j12266426598044_1_alg».proof.Proof.KernelFold
import proofs.«147117_j12266426598044_1_alg».proof.Proof.RefValue
import proofs.«147117_j12266426598044_1_alg».proof.Proof.SageBridge
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## The two idealized programs compute one function -/

/-- From memories that agree on the arguments both programs end with the result at the kernel program's layer
    function applied three times: the kernel's by its run and the fold through its segments, the reference's
    by its run, its term read as three layers, the arguments' agreement, and the bridge layer by layer. -/
theorem algebraic : Cert.algebraic_KernelIdeal_ReferenceIdeal := by
  intro m ρ m' ρ' _ hagree
  refine ⟨fun c => Cert.Sage.Fold.H3 m c, ?_, ?_⟩
  · exact (θ_run Cert.KernelIdeal.defs _ _).mono
      (fun r h c => ⟨(h c).1.trans (Cert.Sage.Fold.result_value m ρ c), (h c).2⟩)
      (Cert.Sage.KernelRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.Sage.Ref.result_value, a0, a1, a2, a3, a4, a5, a6, a7, a8, a9, a10]
    show _ = Cert.Sage.K.layer _ (Cert.Sage.K.layer _ (Cert.Sage.K.layer _ _ _ _ _) _ _ _) _ _ _
    rw [Cert.Sage.layer_eq, Cert.Sage.layer_eq, Cert.Sage.layer_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
